-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x4096 : Shape := ⟨2, ![4096, 4096]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4096x2048 .f32) (main_arg1 : FVec F S4096x4096 .f32) (main_arg2 : IVec S4096x4096 32) (main_arg3 : FVec F S4096x2048 .f32) (main_arg4 : FVec F S4096 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4096x2048 : Shape := ⟨2, ![4096, 2048]⟩
abbrev S4096x4096 : Shape := ⟨2, ![4096, 4096]⟩
abbrev S4096 : Shape := ⟨1, ![4096]⟩
abbrev S1x4096 : Shape := ⟨2, ![1, 4096]⟩
abbrev S512x2048 : Shape := ⟨2, ![512, 2048]⟩
abbrev S1024x2048 : Shape := ⟨2, ![1024, 2048]⟩
abbrev S1x1024 : Shape := ⟨2, ![1, 1024]⟩
abbrev S512x1024 : Shape := ⟨2, ![512, 1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x4096, .i32⟩
  | .hbm, ⟨3, _⟩ => ⟨S4096x2048, .f32⟩
  | .hbm, ⟨4, _⟩ => ⟨S4096, .f32⟩
  | .hbm, ⟨5, _⟩ => ⟨S1x4096, .f32⟩
  | .hbm, ⟨6, _⟩ => ⟨S4096x4096, .f32⟩
  | .hbm, ⟨7, _⟩ => ⟨S4096x4096, .f32⟩
  | .local _ .vmem, ⟨0, _⟩ => ⟨S512x2048, .f32⟩
  | .local _ .vmem, ⟨1, _⟩ => ⟨S512x2048, .f32⟩
  | .local _ .vmem, ⟨2, _⟩ => ⟨S1024x2048, .f32⟩
  | .local _ .vmem, ⟨3, _⟩ => ⟨S1024x2048, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .i32⟩
  | .local _ .vmem, ⟨9, _⟩ => ⟨S512x1024, .i32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4096_S1x4096 : S4096.ShapeCasts S1x4096
  inb_S512x2048_S512x2048_0_0 : ∀ a, (![0, 0] : Fin 2 → Nat) a + S512x2048.size a ≤ S512x2048.size a
  h_S512x2048 : 0 < S512x2048.numel
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  natLt_1_32 : 1 < 32
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x2048.size a
  hwx0_1 : ∀ i : grid0.Coords, EltTy.bits .f32 = 32 ∨ (Rect.block (s := S4096x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x4096.size a
  hwx0_4 : ∀ i : grid0.Coords, EltTy.bits .i32 = 32 ∨ (Rect.block (s := S4096x4096) S512x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x4096.size a
  hwx0_5 : ∀ i : grid0.Coords, EltTy.bits .f32 = 32 ∨ (Rect.block (s := S4096x4096) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x4096.size a
  hwx0_6 : ∀ i : grid0.Coords, EltTy.bits .f32 = 32 ∨ (Rect.block (s := S4096x4096) S512x1024.size (cc0_transform_6 i) (hinb0_6 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 77
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x4096, .i32⟩
  | .hbm, ⟨3, _⟩ => ⟨S4096x2048, .f32⟩
  | .hbm, ⟨4, _⟩ => ⟨S4096, .f32⟩
  | .hbm, ⟨5, _⟩ => ⟨S_, .i32⟩
  | .hbm, ⟨6, _⟩ => ⟨S4096x4096, .i32⟩
  | .hbm, ⟨7, _⟩ => ⟨S4096x4096, .i1⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .i1⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .i1⟩
  | .hbm, ⟨34, _⟩ => ⟨S_, .i32⟩
  | .hbm, ⟨35, _⟩ => ⟨S_, .i32⟩
  | .hbm, ⟨36, _⟩ => ⟨S4096x4096, .i32⟩
  | .hbm, ⟨37, _⟩ => ⟨S4096x4096, .i32⟩
  | .hbm, ⟨38, _⟩ => ⟨S_, .i32⟩
  | .hbm, ⟨39, _⟩ => ⟨S4096x4096, .i32⟩
  | .hbm, ⟨40, _⟩ => ⟨S4096x4096, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S4096x4096, .i32⟩
  | .hbm, ⟨45, _⟩ => ⟨S4096x4096, .i32⟩
  | .hbm, ⟨46, _⟩ => ⟨S_, .i32⟩
  | .hbm, ⟨47, _⟩ => ⟨S4096x4096, .i32⟩
  | .hbm, ⟨48, _⟩ => ⟨S4096x4096, .i32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096x4096, .f32⟩
  | .hbm, ⟨67, _⟩ => ⟨S4096x4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S4096x4096, .f32⟩
  | .hbm, ⟨75, _⟩ => ⟨S4096x4096, .f32⟩
  | .hbm, ⟨76, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_call2_v0 : Ref sig .tc := ⟨.hbm, 35, rfl⟩
abbrev main_call2_v1 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_c_7 : Ref sig .tc := ⟨.hbm, 41, rfl⟩
abbrev main_c_8 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v21 : Ref sig .tc := ⟨.hbm, 48, rfl⟩
abbrev main_cst_9 : Ref sig .tc := ⟨.hbm, 49, rfl⟩
abbrev main_v22 : Ref sig .tc := ⟨.hbm, 50, rfl⟩
abbrev main_v23 : Ref sig .tc := ⟨.hbm, 51, rfl⟩
abbrev main_cst_10 : Ref sig .tc := ⟨.hbm, 52, rfl⟩
abbrev main_v24 : Ref sig .tc := ⟨.hbm, 53, rfl⟩
abbrev main_v25 : Ref sig .tc := ⟨.hbm, 54, rfl⟩
abbrev main_cst_11 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_12 : Ref sig .tc := ⟨.hbm, 59, rfl⟩
abbrev main_v29 : Ref sig .tc := ⟨.hbm, 60, rfl⟩
abbrev main_v30 : Ref sig .tc := ⟨.hbm, 61, rfl⟩
abbrev main_cst_13 : Ref sig .tc := ⟨.hbm, 62, rfl⟩
abbrev main_v31 : Ref sig .tc := ⟨.hbm, 63, rfl⟩
abbrev main_v32 : Ref sig .tc := ⟨.hbm, 64, rfl⟩
abbrev main_cst_14 : Ref sig .tc := ⟨.hbm, 65, rfl⟩
abbrev main_v33 : Ref sig .tc := ⟨.hbm, 66, rfl⟩
abbrev main_v34 : Ref sig .tc := ⟨.hbm, 67, rfl⟩
abbrev main_cst_15 : Ref sig .tc := ⟨.hbm, 68, rfl⟩
abbrev main_cst_16 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_v35 : Ref sig .tc := ⟨.hbm, 75, rfl⟩
abbrev main_v36 : Ref sig .tc := ⟨.hbm, 76, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x2048_S4096x2048_S4096x4096_1_1_0_0_n_n_wf : DotDims.WF S4096x2048 S4096x2048 S4096x4096 [1] [1] [0] [0] [] []

variable [Facts₀]

def dot_S4096x2048_S4096x2048_S4096x4096_1_1_0_0_n_n : DotDims S4096x2048 S4096x2048 S4096x4096 where
  lhsContracting := [1]
  rhsContracting := [1]
  lhsNonContracting := [0]
  rhsNonContracting := [0]
  lhsBatch := []
  rhsBatch := []
  wf := dot_S4096x2048_S4096x2048_S4096x4096_1_1_0_0_n_n_wf

class Facts : Prop extends Facts₀ where

variable [Facts]
-- ==== Proof.LibRowsDot.lean ====
/-
  A matrix product against a transposed right operand, read at an index.

  The dimension numbers of `[a, K] × [b, K] → [a, b]` — contract the left operand's axis 1 with the right operand's axis 1, no
  batch axis — are those of `q · kᵀ` written without a transpose. On the extended reals the product, read at `(p, q)`, is the
  sum over `k` of `l (p, k) · r (q, k)`: row `p` of the left operand against row `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with rows `[a, K] × [b, K] → [a, b]`, over any witness of their
    well-formedness. -/
abbrev rowsDot (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, K]⟩ ⟨2, ![b, K]⟩ ⟨2, ![a, b]⟩ [1] [1] [0] [0] [] [])

/-- Off the contracted axis the left operand is read at the result's row, -/
theorem rowsDot_lhs_row (i : (⟨2, ![a, b]⟩ : Shape).Idx) (κ : (rowsDot wf).contr.Idx) :
    ((rowsDot wf).lhsIdx i κ 0).val = (i 0).val := by
  unfold DotDims.lhsIdx
  rw [dif_neg (show ¬(0 : Fin (Shape.rank ⟨2, ![a, K]⟩)) ∈ (rowsDot wf).lhsBatch from List.not_mem_nil),
    dif_pos (show (0 : Fin (Shape.rank ⟨2, ![a, K]⟩)) ∈ (rowsDot wf).lhsNonContracting from List.mem_singleton.mpr rfl)]
  rfl

/-- and the right operand at the row the result's column names. -/
theorem rowsDot_rhs_row (i : (⟨2, ![a, b]⟩ : Shape).Idx) (κ : (rowsDot wf).contr.Idx) :
    ((rowsDot wf).rhsIdx i κ 0).val = (i 1).val := by
  unfold DotDims.rhsIdx
  rw [dif_neg (show ¬(0 : Fin (Shape.rank ⟨2, ![b, K]⟩)) ∈ (rowsDot wf).rhsBatch from List.not_mem_nil),
    dif_pos (show (0 : Fin (Shape.rank ⟨2, ![b, K]⟩)) ∈ (rowsDot wf).rhsNonContracting from List.mem_singleton.mpr rfl)]
  rfl

/-- At result index `(p, q)` and contraction position `k` the left operand is read at `(p, k)`. -/
theorem rowsDot_lhsIdx (p : Fin a) (q : Fin b) (k : Fin K) :
    (rowsDot wf).lhsIdx (ix2 p q) ((contrEquiv1 (rowsDot wf) K rfl rfl).symm k) = ix2 p k :=
  funext fun ax => Fin.ext (by
    match ax with
    | ⟨0, _⟩ => exact rowsDot_lhs_row wf _ _
    | ⟨1, _⟩ =>
      exact ((rowsDot wf).lhsIdx_val_of_single rfl _ _).trans (contrEquiv1_symm_val (rowsDot wf) K rfl rfl k))

/-- … and the right operand at `(q, k)`. -/
theorem rowsDot_rhsIdx (p : Fin a) (q : Fin b) (k : Fin K) :
    (rowsDot wf).rhsIdx (ix2 p q) ((contrEquiv1 (rowsDot wf) K rfl rfl).symm k) = ix2 q k :=
  funext fun ax => Fin.ext (by
    match ax with
    | ⟨0, _⟩ => exact rowsDot_rhs_row wf _ _
    | ⟨1, _⟩ =>
      exact ((rowsDot wf).rhsIdx_val_of_single rfl _ _).trans (contrEquiv1_symm_val (rowsDot wf) K rfl rfl k))

/-- The contraction of a product of rows with rows at `(p, q)`, re-indexed by the contracted coordinate. -/
theorem rowsDot_sum {φ₁ φ₂ : FTy} (l : FVec Ideal ⟨2, ![a, K]⟩ φ₁) (r : FVec Ideal ⟨2, ![b, K]⟩ φ₂) (p : Fin a) (q : Fin b) :
    (∑ k : (rowsDot wf).contr.Idx, l ((rowsDot wf).lhsIdx (ix2 p q) k) * r ((rowsDot wf).rhsIdx (ix2 p q) k))
      = ∑ k : Fin K, l (ix2 p k) * r (ix2 q k) := by
  rw [← Equiv.sum_comp (contrEquiv1 (rowsDot wf) K rfl rfl).symm]
  refine Finset.sum_congr rfl fun k _ => ?_
  rw [rowsDot_lhsIdx, rowsDot_rhsIdx]

/-- A `tpu.matmul` of rows with rows at `(p, q)`: the accumulator's entry plus the row-by-row sum. -/
theorem matmul_rows_apply {φ₁ φ₂ : FTy} (prec : Option ContractPrecision) (l : FVec Ideal ⟨2, ![a, K]⟩ φ₁)
    (r : FVec Ideal ⟨2, ![b, K]⟩ φ₂) (acc : FVec Ideal ⟨2, ![a, b]⟩ .f32) (p : Fin a) (q : Fin b) :
    FloatOps.matmul (rowsDot wf) prec l r acc (ix2 p q) = acc (ix2 p q) + ∑ k : Fin K, l (ix2 p k) * r (ix2 q k) := by
  rw [Ideal.matmul_apply, rowsDot_sum]

/-- Into the zero accumulator: the row-by-row sum alone. -/
theorem matmul_rows_zero_apply {φ₁ φ₂ : FTy} (prec : Option ContractPrecision) (l : FVec Ideal ⟨2, ![a, K]⟩ φ₁)
    (r : FVec Ideal ⟨2, ![b, K]⟩ φ₂) (p : Fin a) (q : Fin b) :
    FloatOps.matmul (rowsDot wf) prec l r (constant ⟨2, ![a, b]⟩ .f32 0x00000000#32) (ix2 p q)
      = ∑ k : Fin K, l (ix2 p k) * r (ix2 q k) := by
  rw [Ideal.matmul_constant_zero_apply, rowsDot_sum]

/-- The host's `dot_general` of rows with rows at `(p, q)`: the same sum. -/
theorem dotGeneral_rows_apply {φ₁ φ₂ : FTy} (prec : Option ContractPrecision) (sched : HostSchedule)
    (l : FVec Ideal ⟨2, ![a, K]⟩ φ₁) (r : FVec Ideal ⟨2, ![b, K]⟩ φ₂) (p : Fin a) (q : Fin b) :
    FloatOps.dotGeneral (rowsDot wf) prec sched l r (ix2 p q) = ∑ k : Fin K, l (ix2 p k) * r (ix2 q k) := by
  rw [Ideal.dotGeneral_apply, rowsDot_sum]

end Cert.Lib

end
-- ==== Proof.LifSpec.lean ====
/-
  One step of a layer of leaky integrate-and-fire neurons, as a function of its arguments, on the extended reals.

  A batch of 4096 samples drives 4096 neurons through 2048 inputs. For sample `p` and neuron `q`:

    current(p, q)   = Σ_k  x(p, k) · w(q, k)  +  b(q)                         row p of the spikes against row q of the weights
    potential(p, q) = 0.9f · v(p, q)  +  (rc(p, q) = 0 ? current(p, q) : 0)   the decay, then the integration unless refractory
    spike           = 1 if potential ≥ 1, else 0                              the threshold
    reset           = 0 if spike > 0, else potential                          the reset of a neuron that fired
    surrogate       = min(1, max(0, 2 / (π₃₂ · (1 + (2 · ((reset − 1) / 1))²))))   the arctan surrogate gradient, clipped

  and the two results are `spike · surrogate` and `reset`. Every constant is the real its f32 word denotes (0.9f is not
  9/10, π₃₂ is not π): both programs carry the same words, so no word is ever evaluated here.
  Everything after `potential` is a function of one extended real; only `current` looks at more than one entry of an
  argument, and it is a plain finite sum, so no law of the extended reals beyond the definitions is needed to compare two
  programs that both compute this.
-/
import Idealize.ShloMosaic.PureOps.Ideal
import Idealize.ShloMosaic.Lib.ValueIdx

noncomputable section

namespace Cert.Lif

open Idealize.ShloMosaic Idealize.ShloMosaic.ValueIdx
open scoped BigOperators

/-- The potential after the decay by `0.9f` and the integration of the input current, which a refractory neuron
    (`rc ≠ 0`) skips. -/
def integrate (v : Ideal .f32) (rc : BitVec 32) (cur : Ideal .f32) : Ideal .f32 :=
  v * Ideal.ofBits .f32 0x3F666666#32
    + Scalar.select (IntOp.cmpi .eq rc 0#32) cur (Ideal.ofBits .f32 0x00000000#32)

/-- The spike: `1` where the potential has reached the threshold `1`, else `0` — the comparison's bit read as a number. -/
def spike (u : Ideal .f32) : Ideal .f32 :=
  FloatOps.uitofp (F := Ideal) .f32 (FloatOps.cmpf (F := Ideal) .oge u (Ideal.ofBits .f32 0x3F800000#32))

/-- The potential after the reset: `0` for a neuron that fired, unchanged otherwise. -/
def reset (u : Ideal .f32) : Ideal .f32 :=
  Scalar.select (FloatOps.cmpf (F := Ideal) .ogt (spike u) (Ideal.ofBits .f32 0x00000000#32))
    (Ideal.ofBits .f32 0x00000000#32) u

/-- The arctan surrogate gradient at a reset potential `r`, clipped to `[0, 1]`:
    `min(1, max(0, 2 / (π₃₂ · (1 + (2 · ((r − 1) / 1))²))))`. -/
def surrogate (r : Ideal .f32) : Ideal .f32 :=
  min (Ideal.ofBits .f32 0x3F800000#32) (max (Ideal.ofBits .f32 0x00000000#32)
    (Ideal.div (Ideal.ofBits .f32 0x40000000#32)
      (Ideal.ofBits .f32 0x40490FDB#32 * (Ideal.ofBits .f32 0x3F800000#32
        + Ideal.ofBits .f32 0x40000000#32 * Ideal.div (r - Ideal.ofBits .f32 0x3F800000#32) (Ideal.ofBits .f32 0x3F800000#32)
          * (Ideal.ofBits .f32 0x40000000#32 * Ideal.div (r - Ideal.ofBits .f32 0x3F800000#32) (Ideal.ofBits .f32 0x3F800000#32))))))

/-- The first result from the integrated potential: the spike weighted by the surrogate gradient at the reset potential. -/
def spikeOut (u : Ideal .f32) : Ideal .f32 := spike u * surrogate (reset u)

/-- The input current of neuron `q` for sample `p`: row `p` of the input spikes against row `q` of the weights, plus the
    neuron's bias. The bias is taken as a function of the neuron, so that a program may hold it as `[4096]` or as `[1, 4096]`. -/
def current (X W : (⟨2, ![4096, 2048]⟩ : Shape).Idx → Ideal .f32) (bias : Fin 4096 → Ideal .f32) (p q : Fin 4096) : Ideal .f32 :=
  (∑ k : Fin 2048, X (ix2 p k) * W (ix2 q k)) + bias q

/-- The integrated potential of every sample and neuron. -/
def potential (X : (⟨2, ![4096, 2048]⟩ : Shape).Idx → Ideal .f32) (V : (⟨2, ![4096, 4096]⟩ : Shape).Idx → Ideal .f32)
    (RC : (⟨2, ![4096, 4096]⟩ : Shape).Idx → BitVec 32) (W : (⟨2, ![4096, 2048]⟩ : Shape).Idx → Ideal .f32)
    (bias : Fin 4096 → Ideal .f32) (i : (⟨2, ![4096, 4096]⟩ : Shape).Idx) : Ideal .f32 :=
  integrate (V i) (RC i) (current X W bias (i 0) (i 1))

/-- THE FIRST RESULT, index by index: the weighted spikes. -/
def outSpikes (X : (⟨2, ![4096, 2048]⟩ : Shape).Idx → Ideal .f32) (V : (⟨2, ![4096, 4096]⟩ : Shape).Idx → Ideal .f32)
    (RC : (⟨2, ![4096, 4096]⟩ : Shape).Idx → BitVec 32) (W : (⟨2, ![4096, 2048]⟩ : Shape).Idx → Ideal .f32)
    (bias : Fin 4096 → Ideal .f32) : (⟨2, ![4096, 4096]⟩ : Shape).Idx → Ideal .f32 :=
  fun i => spikeOut (potential X V RC W bias i)

/-- THE SECOND RESULT, index by index: the potentials after the reset. -/
def outPotential (X : (⟨2, ![4096, 2048]⟩ : Shape).Idx → Ideal .f32) (V : (⟨2, ![4096, 4096]⟩ : Shape).Idx → Ideal .f32)
    (RC : (⟨2, ![4096, 4096]⟩ : Shape).Idx → BitVec 32) (W : (⟨2, ![4096, 2048]⟩ : Shape).Idx → Ideal .f32)
    (bias : Fin 4096 → Ideal .f32) : (⟨2, ![4096, 4096]⟩ : Shape).Idx → Ideal .f32 :=
  fun i => reset (potential X V RC W bias i)

/-- A one-bit word widened to 32 bits and read as a SIGNED integer is the bit read as an unsigned one: both are `0` or `1`.
    (One program converts the comparison's bit through an i32, the other directly.) -/
theorem sitofp_zext_bit (b : BitVec 1) :
    FloatOps.sitofp (F := Ideal) .f32 (b.setWidth 32) = FloatOps.uitofp (F := Ideal) .f32 b := by
  have h : ∀ b : BitVec 1, (b.setWidth 32).toInt = (b.toNat : Int) := by decide
  show (((b.setWidth 32).toInt : ℝ) : EReal) = (((b.toNat : ℕ) : ℝ) : EReal)
  rw [h b]
  norm_cast

end Cert.Lif

end
-- ==== Proof.LifBody.lean ====
/-
  The kernel's body at one entry of its block.

  At a grid point the body holds a [512, 2048] block of input spikes, a [1024, 2048] block of weights, a [1, 1024] block of
  the bias row, and [512, 1024] blocks of the potentials and of the refractory counters. Entry (p, q) of what it stores
  depends on row p of the spikes block, row q of the weights block, entry q of the bias block and entry (p, q) of the other
  two: the integrated potential there is `integrate v rc (Σ_k x(p, k) · w(q, k) + b(0, q))`, and the two stored values are
  `spikeOut` and `reset` of it. The matrix unit's product into a zero accumulator is the plain sum on the extended reals;
  the [1, 1024] block cast to its own shape and broadcast over the 512 rows reads its one row; the spike's bit goes to a
  number through an i32 here, which is the bit itself.
-/
import proofs.«160846_j39865886441622_2_alg».proof.Proof.Gen.KernelIdeal.Skeleton
import proofs.«160846_j39865886441622_2_alg».proof.Proof.LibRowsDot
import proofs.«160846_j39865886441622_2_alg».proof.Proof.LifSpec
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.Lif
open scoped BigOperators

variable (x0 : Vec Ideal S512x2048 .f32) (x1 : Vec Ideal S1024x2048 .f32) (x2 : Vec Ideal S1x1024 .f32)
  (x4 : Vec Ideal S512x1024 .i32) (x3 : Vec Ideal S512x1024 .f32) (p : Fin 512) (q : Fin 1024)

/-- The block's input current at (p, q): row p of the spikes block against row q of the weights block, plus the bias
    block's entry q. -/
abbrev blockCurrent : Ideal .f32 := (∑ k : Fin 2048, x0 (ix2 p k) * x1 (ix2 q k)) + x2 (ix2 (0 : Fin 1) q)

/-- The matrix product into the zero accumulator, at (p, q), is the sum over the 2048 inputs. -/
theorem product_apply :
    matmul (F := Ideal) (φ₁ := .f32) (φ₂ := .f32) dot_S512x2048_S1024x2048_S512x1024_1_1_0_0_n_n (some .fp32) x0 x1
        (constant (F := Ideal) S512x1024 .f32 0x00000000#32) (ix2 p q)
      = ∑ k : Fin 2048, x0 (ix2 p k) * x1 (ix2 q k) :=
  Cert.Lib.matmul_rows_zero_apply (a := 512) (K := 2048) (b := 1024)
    Cert.KernelIdeal.Gen.dot_S512x2048_S1024x2048_S512x1024_1_1_0_0_n_n_wf (some .fp32) x0 x1 p q

/-- The bias block, cast to its own shape and broadcast over the rows, reads its one row at q. -/
theorem biasRow_apply :
    broadcastTo S512x1024 (shapeCast S1x1024 x2 shapeCasts_S1x1024_S1x1024) broadcasts_S1x1024_S512x1024 (ix2 p q)
      = x2 (ix2 (0 : Fin 1) q) := by
  rw [shapeCast_self]
  exact broadcastTo_1b_ab_apply x2 _ p q

/-- THE INTEGRATED POTENTIAL at (p, q) of the block. -/
theorem potential_apply :
    k0_pay2 x0 x1 x2 x4 x3 (ix2 p q) = integrate (x3 (ix2 p q)) (x4 (ix2 p q)) (blockCurrent x0 x1 x2 p q) := by
  unfold k0_pay2
  show integrate (x3 (ix2 p q)) (x4 (ix2 p q))
      (matmul dot_S512x2048_S1024x2048_S512x1024_1_1_0_0_n_n (some .fp32) x0 x1 (constant S512x1024 .f32 0x00000000#32) (ix2 p q)
        + broadcastTo S512x1024 (shapeCast S1x1024 x2 shapeCasts_S1x1024_S1x1024) broadcasts_S1x1024_S512x1024 (ix2 p q)) = _
  rw [product_apply, biasRow_apply]

/-- The spike there: the comparison's bit, widened to an i32 and converted as a signed integer, is the bit as a number. -/
theorem spike_apply :
    k0_pay3 x0 x1 x2 x4 x3 (ix2 p q) = spike (k0_pay2 x0 x1 x2 x4 x3 (ix2 p q)) := by
  unfold k0_pay3
  exact sitofp_zext_bit _

/-- THE SECOND STORED VALUE there: the potential after the reset. -/
theorem reset_apply :
    k0_pay4 x0 x1 x2 x4 x3 (ix2 p q) = reset (k0_pay2 x0 x1 x2 x4 x3 (ix2 p q)) := by
  unfold k0_pay4
  show Scalar.select (FloatOps.cmpf (F := Ideal) .ogt (k0_pay3 x0 x1 x2 x4 x3 (ix2 p q)) (Ideal.ofBits .f32 0x00000000#32))
      (Ideal.ofBits .f32 0x00000000#32) (k0_pay2 x0 x1 x2 x4 x3 (ix2 p q)) = _
  rw [spike_apply]
  rfl

/-- The surrogate's denominator there, from the reset potential. -/
theorem denominator_apply (i : S512x1024.Idx) :
    k0_pay5 x0 x1 x2 x4 x3 i
      = Ideal.ofBits .f32 0x40490FDB#32 * (Ideal.ofBits .f32 0x3F800000#32
        + Ideal.ofBits .f32 0x40000000#32 * Ideal.div (k0_pay4 x0 x1 x2 x4 x3 i - Ideal.ofBits .f32 0x3F800000#32) (Ideal.ofBits .f32 0x3F800000#32)
          * (Ideal.ofBits .f32 0x40000000#32 * Ideal.div (k0_pay4 x0 x1 x2 x4 x3 i - Ideal.ofBits .f32 0x3F800000#32) (Ideal.ofBits .f32 0x3F800000#32))) :=
  rfl

/-- The first stored value from the spike and the denominator: the spike times the clipped quotient. -/
theorem weighted_apply (s d : FVec Ideal S512x1024 .f32) (i : S512x1024.Idx) :
    k0_pay1 s d (Scalar.ofBits .f32 0x40000000#32) i
      = s i * min (Ideal.ofBits .f32 0x3F800000#32) (max (Ideal.ofBits .f32 0x00000000#32) (Ideal.div (Ideal.ofBits .f32 0x40000000#32) (d i))) :=
  rfl

/-- THE FIRST STORED VALUE at (p, q): the spike weighted by the surrogate gradient at the reset potential. -/
theorem spikeOut_apply :
    k0_pay1 (k0_pay3 x0 x1 x2 x4 x3) (k0_pay5 x0 x1 x2 x4 x3) (Scalar.ofBits .f32 0x40000000#32) (ix2 p q)
      = spikeOut (k0_pay2 x0 x1 x2 x4 x3 (ix2 p q)) := by
  rw [weighted_apply, denominator_apply, spike_apply, reset_apply]
  rfl

end Cert.KernelIdeal.Body

end
-- ==== Proof.LifBlocks.lean ====
/-
  From what each grid point writes back to the two whole result arrays.

  The grid is 4 × 8: the outer axis walks the four [·, 1024] column blocks of the neurons, the inner axis the eight
  [512, ·] row blocks of the samples. At point t, with row block I = I(t) and column block J = J(t), the body holds rows
  512·I … of the spikes, rows 1024·J … of the weights, columns 1024·J … of the bias row, and block (I, J) of the potentials
  and of the counters; both results are written back to block (I, J). So entry (p, q) of what is written back is the
  specification at (512·I + p, 1024·J + q): the body's row p of spikes is the array's row 512·I + p, its row q of weights the
  array's row 1024·J + q, and so on, axis by axis (a block's coordinate in its array is block index × block size + the
  coordinate inside the block). The 32 blocks (I, J) tile [4096, 4096], so each result array ends as the specification
  everywhere. The bias reaches the region as a [1, 4096] array, the host's reshape of the [4096] argument.
-/
import proofs.«160846_j39865886441622_2_alg».proof.Proof.Gen.KernelIdeal.Value
import proofs.«160846_j39865886441622_2_alg».proof.Proof.LifBody
import Idealize.ShloMosaic.Lib.Pipeline.Value
import Idealize.ShloMosaic.Lib.ValueLayout
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Lif
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 32 points -/

/-- Every window's block index in terms of the first result's, `(I, J) = win0_5.index t`: the spikes move with I, the
    weights and the bias with J, the potentials, the counters and the second result with (I, J); I ≤ 7 and J ≤ 3. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = 0 ∧ win0_2.index t (1 : Fin 2) = win0_5.index t (1 : Fin 2)
    ∧ win0_3.index t (0 : Fin 2) = win0_5.index t (0 : Fin 2) ∧ win0_3.index t (1 : Fin 2) = win0_5.index t (1 : Fin 2)
    ∧ win0_4.index t (0 : Fin 2) = win0_5.index t (0 : Fin 2) ∧ win0_4.index t (1 : Fin 2) = win0_5.index t (1 : Fin 2)
    ∧ win0_6.index t (0 : Fin 2) = win0_5.index t (0 : Fin 2) ∧ win0_6.index t (1 : Fin 2) = win0_5.index t (1 : Fin 2)
    ∧ win0_5.index t (0 : Fin 2) ≤ 7 ∧ win0_5.index t (1 : Fin 2) ≤ 3 :=
  (by decide +kernel : ∀ t : Fin grid0.N, _)

/-- Every block (I, J) of the 8 × 4 tiling is some point's, for the first result … -/
theorem idx_onto5 : ∀ (I : Fin 8) (J : Fin 4), ∃ t : Fin cfg0.N, win0_5.index t = ![I.val, J.val] :=
  (by decide +kernel : ∀ (I : Fin 8) (J : Fin 4), ∃ t : Fin grid0.N, win0_5.index t = ![I.val, J.val])

/-- … and for the second. -/
theorem idx_onto6 : ∀ (I : Fin 8) (J : Fin 4), ∃ t : Fin cfg0.N, win0_6.index t = ![I.val, J.val] :=
  (by decide +kernel : ∀ (I : Fin 8) (J : Fin 4), ∃ t : Fin grid0.N, win0_6.index t = ![I.val, J.val])

/-! ## Each input block, read in its array -/

/-- The spikes block at point t: entry y is the array's entry at block index × block size + y, axis by axis. -/
theorem spikes_blk (c : Dev nD) (t : Fin cfg0.N) (y : S512x2048.Idx) (i : S4096x2048.Idx)
    (h0 : (i 0).val = win0_0.index t (0 : Fin 2) * 512 + (y 0).val)
    (h1 : (i 1).val = win0_0.index t (1 : Fin 2) * 2048 + (y 1).val) :
    (iblk m c 0 t : Vec Ideal S512x2048 .f32) y = (V m c main_arg0 : S4096x2048.Idx → Ideal .f32) i := by
  show (V m c main_arg0 : S4096x2048.Idx → Ideal .f32) (((cfg0.win 0).blk t).view.emb y) = _
  refine congrArg (V m c main_arg0 : S4096x2048.Idx → Ideal .f32) (funext fun a => Fin.ext ?_)
  match a with
  | ⟨0, _⟩ => show win0_0.index t (0 : Fin 2) * 512 + 1 * (y 0).val = (i 0).val; omega
  | ⟨1, _⟩ => show win0_0.index t (1 : Fin 2) * 2048 + 1 * (y 1).val = (i 1).val; omega

/-- The weights block. -/
theorem weights_blk (c : Dev nD) (t : Fin cfg0.N) (y : S1024x2048.Idx) (i : S4096x2048.Idx)
    (h0 : (i 0).val = win0_1.index t (0 : Fin 2) * 1024 + (y 0).val)
    (h1 : (i 1).val = win0_1.index t (1 : Fin 2) * 2048 + (y 1).val) :
    (iblk m c 1 t : Vec Ideal S1024x2048 .f32) y = (V m c main_arg3 : S4096x2048.Idx → Ideal .f32) i := by
  show (V m c main_arg3 : S4096x2048.Idx → Ideal .f32) (((cfg0.win 1).blk t).view.emb y) = _
  refine congrArg (V m c main_arg3 : S4096x2048.Idx → Ideal .f32) (funext fun a => Fin.ext ?_)
  match a with
  | ⟨0, _⟩ => show win0_1.index t (0 : Fin 2) * 1024 + 1 * (y 0).val = (i 0).val; omega
  | ⟨1, _⟩ => show win0_1.index t (1 : Fin 2) * 2048 + 1 * (y 1).val = (i 1).val; omega

/-- The bias row's block. -/
theorem bias_blk (c : Dev nD) (t : Fin cfg0.N) (y : S1x1024.Idx) (i : S1x4096.Idx)
    (h0 : (i 0).val = win0_2.index t (0 : Fin 2) * 1 + (y 0).val)
    (h1 : (i 1).val = win0_2.index t (1 : Fin 2) * 1024 + (y 1).val) :
    (iblk m c 2 t : Vec Ideal S1x1024 .f32) y = (V m c main_v0 : S1x4096.Idx → Ideal .f32) i := by
  show (V m c main_v0 : S1x4096.Idx → Ideal .f32) (((cfg0.win 2).blk t).view.emb y) = _
  refine congrArg (V m c main_v0 : S1x4096.Idx → Ideal .f32) (funext fun a => Fin.ext ?_)
  match a with
  | ⟨0, _⟩ => show win0_2.index t (0 : Fin 2) * 1 + 1 * (y 0).val = (i 0).val; omega
  | ⟨1, _⟩ => show win0_2.index t (1 : Fin 2) * 1024 + 1 * (y 1).val = (i 1).val; omega

/-- The potentials' block. -/
theorem potentials_blk (c : Dev nD) (t : Fin cfg0.N) (y : S512x1024.Idx) (i : S4096x4096.Idx)
    (h0 : (i 0).val = win0_3.index t (0 : Fin 2) * 512 + (y 0).val)
    (h1 : (i 1).val = win0_3.index t (1 : Fin 2) * 1024 + (y 1).val) :
    (iblk m c 3 t : Vec Ideal S512x1024 .f32) y = (V m c main_arg1 : S4096x4096.Idx → Ideal .f32) i := by
  show (V m c main_arg1 : S4096x4096.Idx → Ideal .f32) (((cfg0.win 3).blk t).view.emb y) = _
  refine congrArg (V m c main_arg1 : S4096x4096.Idx → Ideal .f32) (funext fun a => Fin.ext ?_)
  match a with
  | ⟨0, _⟩ => show win0_3.index t (0 : Fin 2) * 512 + 1 * (y 0).val = (i 0).val; omega
  | ⟨1, _⟩ => show win0_3.index t (1 : Fin 2) * 1024 + 1 * (y 1).val = (i 1).val; omega

/-- The refractory counters' block. -/
theorem counters_blk (c : Dev nD) (t : Fin cfg0.N) (y : S512x1024.Idx) (i : S4096x4096.Idx)
    (h0 : (i 0).val = win0_4.index t (0 : Fin 2) * 512 + (y 0).val)
    (h1 : (i 1).val = win0_4.index t (1 : Fin 2) * 1024 + (y 1).val) :
    (iblk m c 4 t : Vec Ideal S512x1024 .i32) y = (V m c main_arg2 : S4096x4096.Idx → BitVec 32) i := by
  show (V m c main_arg2 : S4096x4096.Idx → BitVec 32) (((cfg0.win 4).blk t).view.emb y) = _
  refine congrArg (V m c main_arg2 : S4096x4096.Idx → BitVec 32) (funext fun a => Fin.ext ?_)
  match a with
  | ⟨0, _⟩ => show win0_4.index t (0 : Fin 2) * 512 + 1 * (y 0).val = (i 0).val; omega
  | ⟨1, _⟩ => show win0_4.index t (1 : Fin 2) * 1024 + 1 * (y 1).val = (i 1).val; omega

/-! ## The integrated potential of the block is the specification's, at the block's place in the array -/

/-- The bias of neuron q as the region finds it: row 0 of the [1, 4096] array the host's reshape wrote. -/
abbrev biasAt (c : Dev nD) (q : Fin 4096) : Ideal .f32 := (V m c main_v0 : S1x4096.Idx → Ideal .f32) (ix2 (0 : Fin 1) q)

/-- The specification's potential over the arrays as the region finds them. -/
abbrev potentialV (c : Dev nD) : S4096x4096.Idx → Ideal .f32 :=
  potential (V m c main_arg0) (V m c main_arg1) (V m c main_arg2) (V m c main_arg3) (biasAt m c)

/-- At point t with `(I, J) = win0_5.index t`, the body's integrated potential at (p, q) is the specification's at any
    index i with `i 0 = 512·I + p` and `i 1 = 1024·J + q`. -/
theorem blockPotential_eq (c : Dev nD) (t : Fin cfg0.N) (p : Fin 512) (q : Fin 1024) (i : S4096x4096.Idx)
    (h0 : (i 0).val = win0_5.index t (0 : Fin 2) * 512 + p.val)
    (h1 : (i 1).val = win0_5.index t (1 : Fin 2) * 1024 + q.val) :
    k0_pay2 (iblk m c 0 t) (iblk m c 1 t) (iblk m c 2 t) (iblk m c 4 t) (iblk m c 3 t) (ix2 p q) = potentialV m c i := by
  obtain ⟨e0, e1, e2, e3, e4, e5, e6, e7, e8, e9, -⟩ := idx_facts t
  refine (Body.potential_apply (iblk m c 0 t) (iblk m c 1 t) (iblk m c 2 t) (iblk m c 4 t) (iblk m c 3 t) p q).trans ?_
  have hv : (iblk m c 3 t : Vec Ideal S512x1024 .f32) (ix2 p q) = (V m c main_arg1 : S4096x4096.Idx → Ideal .f32) i :=
    potentials_blk m c t (ix2 p q) i (by show (i 0).val = _ + p.val; omega) (by show (i 1).val = _ + q.val; omega)
  have hr : (iblk m c 4 t : Vec Ideal S512x1024 .i32) (ix2 p q) = (V m c main_arg2 : S4096x4096.Idx → BitVec 32) i :=
    counters_blk m c t (ix2 p q) i (by show (i 0).val = _ + p.val; omega) (by show (i 1).val = _ + q.val; omega)
  have hx : ∀ k : Fin 2048, (iblk m c 0 t : Vec Ideal S512x2048 .f32) (ix2 p k)
      = (V m c main_arg0 : S4096x2048.Idx → Ideal .f32) (ix2 (n0 := 4096) (i 0) k) := fun k =>
    spikes_blk m c t (ix2 p k) (ix2 (n0 := 4096) (i 0) k) (by show (i 0).val = _ + p.val; omega) (by show k.val = _ + k.val; omega)
  have hw : ∀ k : Fin 2048, (iblk m c 1 t : Vec Ideal S1024x2048 .f32) (ix2 q k)
      = (V m c main_arg3 : S4096x2048.Idx → Ideal .f32) (ix2 (n0 := 4096) (i 1) k) := fun k =>
    weights_blk m c t (ix2 q k) (ix2 (n0 := 4096) (i 1) k) (by show (i 1).val = _ + q.val; omega) (by show k.val = _ + k.val; omega)
  have hb : (iblk m c 2 t : Vec Ideal S1x1024 .f32) (ix2 (0 : Fin 1) q) = biasAt m c (i 1) :=
    bias_blk m c t (ix2 (0 : Fin 1) q) (ix2 (0 : Fin 1) (i 1)) (by show 0 = _ * 1 + 0; omega) (by show (i 1).val = _ + q.val; omega)
  have hcur : Body.blockCurrent (iblk m c 0 t) (iblk m c 1 t) (iblk m c 2 t) p q
      = current (V m c main_arg0) (V m c main_arg3) (biasAt m c) (i 0) (i 1) :=
    congrArg₂ (fun a b : Ideal .f32 => a + b)
      (Finset.sum_congr rfl fun k _ => congrArg₂ (fun a b : Ideal .f32 => a * b) (hx k) (hw k)) hb
  show integrate ((iblk m c 3 t : Vec Ideal S512x1024 .f32) (ix2 p q)) ((iblk m c 4 t : Vec Ideal S512x1024 .i32) (ix2 p q))
      (Body.blockCurrent (iblk m c 0 t) (iblk m c 1 t) (iblk m c 2 t) p q)
    = integrate ((V m c main_arg1 : S4096x4096.Idx → Ideal .f32) i) ((V m c main_arg2 : S4096x4096.Idx → BitVec 32) i)
      (current (V m c main_arg0) (V m c main_arg3) (biasAt m c) (i 0) (i 1))
  rw [hv, hr, hcur]

/-! ## What each point writes back -/

/-- The first result over the arrays as the region finds them, -/
abbrev spikesV (c : Dev nD) : S4096x4096.Idx → Ideal .f32 := fun i => spikeOut (potentialV m c i)

/-- and the second. -/
abbrev resetV (c : Dev nD) : S4096x4096.Idx → Ideal .f32 := fun i => reset (potentialV m c i)

/-- POINT t WRITES BACK block t of the weighted spikes. -/
theorem flushed5_eq (c : Dev nD) (t : Fin cfg0.N) :
    (dats m 0 c).flushed 5 t = ((cfg0.win 5).blk t).view.read (Elt Ideal) (spikesV m c) := by
  rw [Value.flushed5]
  unfold out0_5
  rw [View.canon_unit_zero hz]
  simp only [View.ld_unit_zero (S := S512x2048) hz, View.ld_unit_zero (S := S1024x2048) hz,
    View.ld_unit_zero (S := S1x1024) hz, View.ld_unit_zero (S := S512x1024) hz]
  show (k0_pay1 (k0_pay3 (iblk m c 0 t) (iblk m c 1 t) (iblk m c 2 t) (iblk m c 4 t) (iblk m c 3 t))
        (k0_pay5 (iblk m c 0 t) (iblk m c 1 t) (iblk m c 2 t) (iblk m c 4 t) (iblk m c 3 t))
        (Scalar.ofBits .f32 0x40000000#32) : S512x1024.Idx → Ideal .f32)
      = fun j : S512x1024.Idx => spikesV m c (((cfg0.win 5).blk t).view.emb j)
  funext j
  obtain ⟨p, q, rfl⟩ : ∃ (p : Fin 512) (q : Fin 1024), j = ix2 p q := ⟨j 0, j 1, eq_ix2 j⟩
  refine (Body.spikeOut_apply (iblk m c 0 t) (iblk m c 1 t) (iblk m c 2 t) (iblk m c 4 t) (iblk m c 3 t) p q).trans ?_
  refine congrArg spikeOut (blockPotential_eq m c t p q _ ?_ ?_)
  · show win0_5.index t (0 : Fin 2) * 512 + 1 * p.val = win0_5.index t (0 : Fin 2) * 512 + p.val; omega
  · show win0_5.index t (1 : Fin 2) * 1024 + 1 * q.val = win0_5.index t (1 : Fin 2) * 1024 + q.val; omega

/-- POINT t WRITES BACK block t of the reset potentials. -/
theorem flushed6_eq (c : Dev nD) (t : Fin cfg0.N) :
    (dats m 0 c).flushed 6 t = ((cfg0.win 6).blk t).view.read (Elt Ideal) (resetV m c) := by
  obtain ⟨-, -, -, -, -, -, -, -, -, -, e10, e11, -⟩ := idx_facts t
  rw [Value.flushed6]
  unfold out0_6
  rw [View.canon_unit_zero hz]
  simp only [View.ld_unit_zero (S := S512x2048) hz, View.ld_unit_zero (S := S1024x2048) hz,
    View.ld_unit_zero (S := S1x1024) hz, View.ld_unit_zero (S := S512x1024) hz]
  show (k0_pay4 (iblk m c 0 t) (iblk m c 1 t) (iblk m c 2 t) (iblk m c 4 t) (iblk m c 3 t) : S512x1024.Idx → Ideal .f32)
      = fun j : S512x1024.Idx => resetV m c (((cfg0.win 6).blk t).view.emb j)
  funext j
  obtain ⟨p, q, rfl⟩ : ∃ (p : Fin 512) (q : Fin 1024), j = ix2 p q := ⟨j 0, j 1, eq_ix2 j⟩
  refine (Body.reset_apply (iblk m c 0 t) (iblk m c 1 t) (iblk m c 2 t) (iblk m c 4 t) (iblk m c 3 t) p q).trans ?_
  refine congrArg reset (blockPotential_eq m c t p q _ ?_ ?_)
  · show win0_6.index t (0 : Fin 2) * 512 + 1 * p.val = win0_5.index t (0 : Fin 2) * 512 + p.val; omega
  · show win0_6.index t (1 : Fin 2) * 1024 + 1 * q.val = win0_5.index t (1 : Fin 2) * 1024 + q.val; omega

/-! ## The 32 blocks tile each result array -/

/-- An index is in point t's block of the first result iff each coordinate is in the block's range on its axis. -/
theorem mem_blk5 (t : Fin cfg0.N) (i : S4096x4096.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v1_0).slice (win0_5.rect t)).set ↔ _
  rw [View.set_slice_whole, Rect.mem_set_unit]
  exact Iff.rfl

/-- The same for the second result. -/
theorem mem_blk6 (t : Fin cfg0.N) (i : S4096x4096.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v1_1).slice (win0_6.rect t)).set ↔ _
  rw [View.set_slice_whole, Rect.mem_set_unit]
  exact Iff.rfl

/-- Index i lies in the block (i 0 / 512, i 1 / 1024), which some point writes back. -/
theorem cover5 (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht⟩ := idx_onto5 ⟨(i 0).val / 512, by omega⟩ ⟨(i 1).val / 1024, by omega⟩
  have q0 : win0_5.index t (0 : Fin 2) = (i 0).val / 512 := congrFun ht 0
  have q1 : win0_5.index t (1 : Fin 2) = (i 1).val / 1024 := congrFun ht 1
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

theorem cover6 (i : S4096x4096.Idx) : ∃ t : Fin cfg0.N, (cfg0.win 6).flush t = true ∧ i ∈ ((cfg0.win 6).blk t).view.set := by
  have hi0 : (i 0).val < 4096 := (i 0).isLt
  have hi1 : (i 1).val < 4096 := (i 1).isLt
  obtain ⟨t, ht⟩ := idx_onto6 ⟨(i 0).val / 512, by omega⟩ ⟨(i 1).val / 1024, by omega⟩
  have q0 : win0_6.index t (0 : Fin 2) = (i 0).val / 512 := congrFun ht 0
  have q1 : win0_6.index t (1 : Fin 2) = (i 1).val / 1024 := congrFun ht 1
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-! ## The arrays as the region finds them are the arguments -/

/-- The bias of neuron q as the region finds it is the argument's entry q: the host's reshape [4096] → [1, 4096] keeps the
    row-major position. -/
theorem biasAt_eq (c : Dev nD) (q : Fin 4096) :
    biasAt m c q = (m ((c : Thread nD τ).loc main_arg4) : S4096.Idx → Ideal .f32) (ix1 q) := by
  have e : (V m c main_v0 : S1x4096.Idx → Ideal .f32)
      = shapeCast S1x4096 (m ((c : Thread nD τ).loc main_arg4) : S4096.Idx → Ideal .f32) shapeCasts_S4096_S1x4096 := by
    dsimp only [Gen.V, Gen.hostOps0]; after_results; rfl
  show (V m c main_v0 : S1x4096.Idx → Ideal .f32) (ix2 (0 : Fin 1) q) = _
  rw [e]
  exact shapeCast_a_1a_apply _ _ 0 q

/-- The specification's potential over the argument arrays. -/
abbrev potentialOf (c : Dev nD) : S4096x4096.Idx → Ideal .f32 :=
  potential (m ((c : Thread nD τ).loc main_arg0)) (m ((c : Thread nD τ).loc main_arg1)) (m ((c : Thread nD τ).loc main_arg2))
    (m ((c : Thread nD τ).loc main_arg3)) (fun q => (m ((c : Thread nD τ).loc main_arg4) : S4096.Idx → Ideal .f32) (ix1 q))

theorem potentialV_eq (c : Dev nD) : potentialV m c = potentialOf m c := by
  show potential (V m c main_arg0) (V m c main_arg1) (V m c main_arg2) (V m c main_arg3) (biasAt m c) = _
  rw [V_main_arg0 m c, V_main_arg1 m c, V_main_arg2 m c, V_main_arg3 m c,
    show biasAt m c = (fun q => (m ((c : Thread nD τ).loc main_arg4) : S4096.Idx → Ideal .f32) (ix1 q)) from funext (biasAt_eq m c)]

/-! ## The two result arrays after the run -/

/-- THE FIRST RESULT ARRAY is the specification's weighted spikes of the arguments. -/
theorem final5 (c : Dev nD) : (dats m 0 c).arrAt 5 cfg0.N = fun i => spikeOut (potentialOf m c i) := by
  rw [(dats m 0 c).arrAt_eq_of_cover 5 (spikesV m c) (fun t _ => flushed5_eq m c t) cover5]
  show (fun i => spikeOut (potentialV m c i)) = _
  rw [potentialV_eq]

/-- THE SECOND RESULT ARRAY is the specification's reset potentials of the arguments. -/
theorem final6 (c : Dev nD) : (dats m 0 c).arrAt 6 cfg0.N = fun i => reset (potentialOf m c i) := by
  rw [(dats m 0 c).arrAt_eq_of_cover 6 (resetV m c) (fun t _ => flushed6_eq m c t) cover6]
  show (fun i => reset (potentialV m c i)) = _
  rw [potentialV_eq]

/-- The kernel's run, read: both result arrays at the specification of the arguments, the arguments unchanged. -/
theorem run : θ_run defs (onTc (τ := τ) (main (F := Ideal))) ⟨m, fun _ => 0, ρ⟩ fun r => ∀ c : Dev nD,
      r.2.mem ((c : Thread nD τ).loc main_v1_0) = (fun i => spikeOut (potentialOf m c i))
      ∧ r.2.mem ((c : Thread nD τ).loc main_v1_1) = (fun i => reset (potentialOf m c i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Value.run_blocks m ρ)

end Cert.KernelIdeal.Blocks

end
-- ==== Proof.LifRef.lean ====
/-
  The reference's two results, read at an index, are the specification.

  Stage by stage the reference computes, at index i = (p, q): the decayed potential `v i · 0.9f`; the current
  `Σ_k x(p, k) · w(q, k) + b(q)` — its `dot_general` is the sum over the contracted axis, its bias a [4096] array broadcast
  through [1, 4096] — selected against zero by `rc i = 0`; their sum, the integrated potential; then, each a function of
  that one extended real, the spike (the comparison's bit converted directly), the reset, and the clipped surrogate
  gradient, whose quotients are the host's, the same division on the extended reals.
-/
import proofs.«160846_j39865886441622_2_alg».proof.Proof.RefRead
import proofs.«160846_j39865886441622_2_alg».proof.Proof.LifSpec
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx Cert.Lif
open scoped BigOperators

variable (x0 : (⟨S4096x2048, .f32⟩ : BufTy).Contents (Elt Ideal)) (x1 : (⟨S4096x4096, .f32⟩ : BufTy).Contents (Elt Ideal))
  (x2 : (⟨S4096x4096, .i32⟩ : BufTy).Contents (Elt Ideal)) (x3 : (⟨S4096x2048, .f32⟩ : BufTy).Contents (Elt Ideal))
  (x4 : (⟨S4096, .f32⟩ : BufTy).Contents (Elt Ideal)) (i : S4096x4096.Idx)

/-- The product's left operand is read at row `i 0`, position k, -/
theorem lidx_eq (k : Fin 2048) : lidx_main_v4 i k = ix2 (i 0) k :=
  funext fun a => by match a with | ⟨0, _⟩ => rfl | ⟨1, _⟩ => rfl

/-- its right operand at row `i 1`, position k, -/
theorem ridx_eq (k : Fin 2048) : ridx_main_v4 i k = ix2 (i 1) k :=
  funext fun a => by match a with | ⟨0, _⟩ => rfl | ⟨1, _⟩ => rfl

/-- and the bias, through its two broadcasts, at `i 1`. -/
theorem bias_idx_eq : idx_main_v5 (idx_main_v6 i) = ix1 (i 1) :=
  funext fun a => by match a with | ⟨0, _⟩ => rfl

/-- THE INTEGRATED POTENTIAL: the reference's `v * 0.9 + where(rc == 0, x·wᵀ + b, 0)` at an index. -/
theorem potential_eq :
    val_main_v9 (F := Ideal) x0 x1 x2 x3 x4 i = potential x0 x1 x2 x3 (fun q => x4 (ix1 q)) i := by
  rw [val_main_v9_apply, val_main_v3_apply, val_main_v2_apply, val_main_cst_apply, val_main_v8_apply, val_main_v1_apply,
    val_main_v0_apply, val_main_c_apply, val_main_v7_apply, val_main_v4_apply, val_main_v6_apply, val_main_v5_apply,
    val_main_call0_v1_apply, val_main_call0_v0_apply, val_main_cst_0_apply]
  simp only [lidx_eq, ridx_eq, bias_idx_eq]
  rfl

/-- The spike at an index, from the integrated potential there. -/
theorem spike_eq :
    val_main_v12 (F := Ideal) x0 x1 x2 x3 x4 i = spike (val_main_v9 (F := Ideal) x0 x1 x2 x3 x4 i) := by
  rw [val_main_v12_apply, val_main_v11_apply, val_main_v10_apply, val_main_cst_1_apply]
  rfl

/-- THE SECOND RESULT at an index: the reset of the integrated potential there. -/
theorem reset_eq :
    val_main_v15 (F := Ideal) x0 x1 x2 x3 x4 i = reset (val_main_v9 (F := Ideal) x0 x1 x2 x3 x4 i) := by
  rw [val_main_v15_apply, val_main_v14_apply, spike_eq, val_main_v13_apply, val_main_cst_2_apply, val_main_call1_v1_apply,
    val_main_call1_v0_apply, val_main_cst_3_apply]
  rfl

/-- THE FIRST RESULT at an index: the spike weighted by the clipped surrogate gradient at the reset potential. -/
theorem spikeOut_eq :
    val_main_v36 (F := Ideal) x0 x1 x2 x3 x4 i = spikeOut (val_main_v9 (F := Ideal) x0 x1 x2 x3 x4 i) := by
  rw [val_main_v36_apply, val_main_v35_apply, val_main_call4_v4_apply, val_main_call4_v3_apply, val_main_cst_16_apply,
    val_main_call4_v2_apply, val_main_call4_v1_apply, val_main_call4_v0_apply, val_main_cst_15_apply, val_main_v34_apply,
    val_main_v33_apply, val_main_cst_14_apply, val_main_v32_apply, val_main_v31_apply, val_main_cst_13_apply,
    val_main_v30_apply, val_main_v29_apply, val_main_cst_12_apply, val_main_v28_apply, val_main_v27_apply,
    val_main_v26_apply, val_main_cst_11_apply, val_main_v25_apply, val_main_v24_apply, val_main_cst_10_apply,
    val_main_v23_apply, val_main_v22_apply, val_main_cst_9_apply, spike_eq, reset_eq]
  rfl

/-- The reference's first result is the specification's weighted spikes … -/
theorem outSpikes_eq :
    val_main_v36 (F := Ideal) x0 x1 x2 x3 x4 = outSpikes x0 x1 x2 x3 (fun q => x4 (ix1 q)) :=
  funext fun i => (spikeOut_eq x0 x1 x2 x3 x4 i).trans (congrArg spikeOut (potential_eq x0 x1 x2 x3 x4 i))

/-- … and its second the specification's reset potentials. -/
theorem outPotential_eq :
    val_main_v15 (F := Ideal) x0 x1 x2 x3 x4 = outPotential x0 x1 x2 x3 (fun q => x4 (ix1 q)) :=
  funext fun i => (reset_eq x0 x1 x2 x3 x4 i).trans (congrArg reset (potential_eq x0 x1 x2 x3 x4 i))

end Cert.ReferenceIdeal.RefValue

end
-- ==== Proof.lean ====
/-
  One step of a layer of leaky integrate-and-fire neurons: a tiled kernel against its whole-array reference, on the
  extended reals.

  Both programs compute, for sample p and neuron q,
      potential = 0.9f · v(p, q) + (rc(p, q) = 0 ? Σ_k x(p, k) · w(q, k) + b(q) : 0),
  then the spike `potential ≥ 1`, the reset potential, and the spike weighted by the clipped arctan surrogate gradient
  `min(1, max(0, 2 / (π₃₂ · (1 + (2 · ((reset − 1) / 1))²))))` (LifSpec). The kernel does it block by block over a 4 × 8
  grid — a [512, 2048] block of spikes against a [1024, 2048] block of weights on the matrix unit, the whole contraction
  inside one block — and writes both results back to block (I, J) of their arrays; the reference does it with one
  `dot_general` over the whole arrays. The two differ only where the extended reals do not see a difference: the matrix
  unit's product into a zero accumulator and the host's `dot_general` are the same finite sum; the kernel's quotients and
  the host's are the same division; the spike's bit becomes a number through an i32 in the kernel and directly in the
  reference; the bias is a [1, 4096] row read blockwise in the kernel and a [4096] array broadcast in the reference. All
  literals are shared word for word, so none is evaluated, and no law of the extended reals that needs finiteness is
  used: the precondition is never opened.

  The kernel's side: its body at an entry of a block (LifBody), then each written-back block as a block of the
  specification and the 32 blocks tiling each result (LifBlocks). The reference's side: its stages read at an index
  (LifRef). The idealization rewrote nothing, so `preserves` holds trivially; the three frames are the programs' runs
  with the results forgotten.
-/
import proofs.«160846_j39865886441622_2_alg».proof.Defs
import proofs.«160846_j39865886441622_2_alg».proof.Proof.Gen.Kernel
import proofs.«160846_j39865886441622_2_alg».proof.Proof.Gen.Kernel.Skeleton
import proofs.«160846_j39865886441622_2_alg».proof.Proof.Gen.Kernel.Launch
import proofs.«160846_j39865886441622_2_alg».proof.Proof.Gen.Kernel.Points
import proofs.«160846_j39865886441622_2_alg».proof.Proof.Gen.Kernel.Frame
import proofs.«160846_j39865886441622_2_alg».proof.Proof.Gen.KernelIdeal
import proofs.«160846_j39865886441622_2_alg».proof.Proof.Gen.KernelIdeal.Skeleton
import proofs.«160846_j39865886441622_2_alg».proof.Proof.Gen.KernelIdeal.Launch
import proofs.«160846_j39865886441622_2_alg».proof.Proof.Gen.KernelIdeal.Points
import proofs.«160846_j39865886441622_2_alg».proof.Proof.Gen.KernelIdeal.Frame
import proofs.«160846_j39865886441622_2_alg».proof.Proof.Gen.ReferenceIdeal
import proofs.«160846_j39865886441622_2_alg».proof.Proof.Gen.Pre_finite_inputs
import proofs.«160846_j39865886441622_2_alg».proof.Proof.Gen.KernelIdeal.Value
import proofs.«160846_j39865886441622_2_alg».proof.Proof.LifBlocks
import proofs.«160846_j39865886441622_2_alg».proof.Proof.LifRef
import Idealize.ShloMosaic.Adequacy
import Idealize.ShloMosaic.Init

noncomputable section

namespace Cert.Proof

open Idealize.ShloMosaic Idealize.SL.Sem Cert.Lif

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the two results forgotten. -/
theorem frame_reference : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- Both programs end with the weighted spikes and the reset potentials of the specification: the kernel block by block
    over arrays that the 32 blocks tile, the reference stage by stage at every index, of arguments that agree. -/
theorem algebraic : Cert.algebraic_KernelIdeal_ReferenceIdeal := by
  intro m ρ m' ρ' _ hagree
  refine ⟨fun c i => spikeOut (Cert.KernelIdeal.Blocks.potentialOf m c i),
    fun c i => reset (Cert.KernelIdeal.Blocks.potentialOf m c i), Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v36_eq, Cert.ReferenceIdeal.RefValue.outSpikes_eq,
      (hagree c).1, (hagree c).2.1, (hagree c).2.2.1, (hagree c).2.2.2.1, (hagree c).2.2.2.2]
    rfl
  · rw [Cert.ReferenceIdeal.ReadP.val_main_v15_eq, Cert.ReferenceIdeal.RefValue.outPotential_eq,
      (hagree c).1, (hagree c).2.1, (hagree c).2.2.1, (hagree c).2.2.2.1, (hagree c).2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
